-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x32 : Shape := ⟨2, ![4096, 32]⟩
abbrev S16x4096 : Shape := ⟨2, ![16, 4096]⟩
abbrev S16x1 : Shape := ⟨2, ![16, 1]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S16x4096 : S_.BroadcastsInDim S16x4096 (![] : Fin 0 → Fin S16x4096.rank)
  reducesTo_S16x4096_S_d0_1 : S16x4096.ReducesTo [0, 1] S_
  bcast_S_S16x1 : S_.BroadcastsInDim S16x1 (![] : Fin 0 → Fin S16x1.rank)
  reducesTo_S16x1_S_d0_1 : S16x1.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg5 : FVec F S16x1 .f32) (main_arg6 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S16x1 .f32 := Host.absf main_arg5
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S4096x16 .f32 := Host.absf main_arg6
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  main_v28

def fn {F : FTy → Type} [FloatOps F] (main_arg0 : FVec F S8192x4096 .f32) (main_arg1 : IVec S4096x4096 32) (main_arg2 : FVec F S4096x32 .f32) (main_arg3 : FVec F S4096x32 .f32) (main_arg4 : FVec F S16x4096 .f32) (main_arg5 : FVec F S16x1 .f32) (main_arg6 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S16x4096 .f32 := Host.absf main_arg4
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg5 main_arg6 main_v13 main_v16
-- ==== Kernel.lean ====
abbrev S8192x4096 : Shape := ⟨2, ![8192, 4096]⟩
abbrev S4096x4096 : Shape := ⟨2, ![4096, 4096]⟩
abbrev S4096x32 : Shape := ⟨2, ![4096, 32]⟩
abbrev S16x4096 : Shape := ⟨2, ![16, 4096]⟩
abbrev S16x1 : Shape := ⟨2, ![16, 1]⟩
abbrev S4096x16 : Shape := ⟨2, ![4096, 16]⟩
abbrev S32x4096 : Shape := ⟨2, ![32, 4096]⟩
abbrev S1024x1024 : Shape := ⟨2, ![1024, 1024]⟩
abbrev S512x1024 : Shape := ⟨2, ![512, 1024]⟩
abbrev S8x512 : Shape := ⟨2, ![8, 512]⟩
abbrev S16x1024 : Shape := ⟨2, ![16, 1024]⟩
abbrev S512x16 : Shape := ⟨2, ![512, 16]⟩
abbrev S1024x512 : Shape := ⟨2, ![1024, 512]⟩
abbrev S1024x16 : Shape := ⟨2, ![1024, 16]⟩
abbrev S512x8x128 : Shape := ⟨3, ![512, 8, 128]⟩
abbrev S512x8 : Shape := ⟨2, ![512, 8]⟩
abbrev S512x8x1 : Shape := ⟨3, ![512, 8, 1]⟩

abbrev nBuf : Space → Nat
  | .hbm => 10
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S16x4096, .f32⟩
  | .hbm, ⟨5, _⟩ => ⟨S16x1, .f32⟩
  | .hbm, ⟨6, _⟩ => ⟨S4096x16, .f32⟩
  | .hbm, ⟨7, _⟩ => ⟨S32x4096, .f32⟩
  | .hbm, ⟨8, _⟩ => ⟨S32x4096, .f32⟩
  | .hbm, ⟨9, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S16x1024, .f32⟩
  | .local _ .vmem, ⟨9, _⟩ => ⟨S16x1024, .f32⟩
  | .local _ .vmem, ⟨10, _⟩ => ⟨S16x1, .f32⟩
  | .local _ .vmem, ⟨11, _⟩ => ⟨S512x16, .f32⟩
  | .local _ .vmem, ⟨12, _⟩ => ⟨S512x16, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  transposes_S4096x32_S32x4096_1_0 : S4096x32.Transposes [1, 0] S32x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S512x1024_S512x1024_0_0 : ∀ a, (![0, 0] : Fin 2 → Nat) a + S512x1024.size a ≤ S512x1024.size a
  h_S512x1024 : 0 < S512x1024.numel
  shapeCasts_S512x1024_S512x8x128 : S512x1024.ShapeCasts S512x8x128
  inb_S8x512_S8x512_0_0 : ∀ a, (![0, 0] : Fin 2 → Nat) a + S8x512.size a ≤ S8x512.size a
  h_S8x512 : 0 < S8x512.numel
  shapeCasts_S8x512_S8x512 : S8x512.ShapeCasts S8x512
  transposes_S8x512_p1_0_S512x8 : S8x512.Transposes [1, 0] S512x8
  shapeCasts_S512x8_S512x8x1 : S512x8.ShapeCasts S512x8x1
  broadcasts_S512x8x1_S512x8x128 : S512x8x1.Broadcasts S512x8x128
  shapeCasts_S512x8x128_S512x1024 : S512x8x128.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S16x1024_S16x1024_0_0 : ∀ a, (![0, 0] : Fin 2 → Nat) a + S16x1024.size a ≤ S16x1024.size a
  h_S16x1024 : 0 < S16x1024.numel
  inb_S16x1_S16x1_0_0 : ∀ a, (![0, 0] : Fin 2 → Nat) a + S16x1.size a ≤ S16x1.size a
  h_S16x1 : 0 < S16x1.numel
  broadcasts_S16x1_S16x1024 : S16x1.Broadcasts S16x1024
  inb_S512x16_S512x16_0_0 : ∀ a, (![0, 0] : Fin 2 → Nat) a + S512x16.size a ≤ S512x16.size a
  h_S512x16 : 0 < S512x16.numel
  dot_S1024x1024_S512x1024_S1024x512_1_1_0_0_n_n_wf : DotDims.WF S1024x1024 S512x1024 S1024x512 [1] [1] [0] [0] [] []
  dot_S1024x1024_S16x1024_S1024x16_1_1_0_0_n_n_wf : DotDims.WF S1024x1024 S16x1024 S1024x16 [1] [1] [0] [0] [] []
  dot_S1024x16_S512x16_S1024x512_1_1_0_0_n_n_wf : DotDims.WF S1024x16 S512x16 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x4096.size a
  hwx0_2 : ∀ i : grid0.Coords, EltTy.bits .f32 = 32 ∨ (Rect.block (s := S32x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S32x4096.size a
  hwx0_3 : ∀ i : grid0.Coords, EltTy.bits .f32 = 32 ∨ (Rect.block (s := S32x4096) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x4096.size a
  hwx0_4 : ∀ i : grid0.Coords, EltTy.bits .f32 = 32 ∨ (Rect.block (s := S16x4096) S16x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x16.size a ≤ S4096x16.size a
  hwx0_6 : ∀ i : grid0.Coords, EltTy.bits .f32 = 32 ∨ (Rect.block (s := S4096x16) S512x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x4096.size a
  hwx0_7 : ∀ i : grid0.Coords, EltTy.bits .f32 = 32 ∨ (Rect.block (s := S8192x4096) S1024x512.size (cc0_transform_7 i) (hinb0_7 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x16_S512x16_S1024x512_1_1_0_0_n_n : DotDims S1024x16 S512x16 S1024x512 where
  lhsContracting := [1]
  rhsContracting := [1]
  lhsNonContracting := [0]
  rhsNonContracting := [0]
  lhsBatch := []
  rhsBatch := []
  wf := dot_S1024x16_S512x16_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x32 : Shape := ⟨2, ![4096, 32]⟩
abbrev S16x4096 : Shape := ⟨2, ![16, 4096]⟩
abbrev S16x1 : Shape := ⟨2, ![16, 1]⟩
abbrev S4096x16 : Shape := ⟨2, ![4096, 16]⟩
abbrev S4096x32x128 : Shape := ⟨3, ![4096, 32, 128]⟩
abbrev S4096x32x1 : Shape := ⟨3, ![4096, 32, 1]⟩
abbrev S8192x16 : Shape := ⟨2, ![8192, 16]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S16x4096, .f32⟩
  | .hbm, ⟨5, _⟩ => ⟨S16x1, .f32⟩
  | .hbm, ⟨6, _⟩ => ⟨S4096x16, .f32⟩
  | .hbm, ⟨7, _⟩ => ⟨S4096x32x128, .i32⟩
  | .hbm, ⟨8, _⟩ => ⟨S4096x32x128, .f32⟩
  | .hbm, ⟨9, _⟩ => ⟨S4096x32x1, .f32⟩
  | .hbm, ⟨10, _⟩ => ⟨S4096x32x128, .f32⟩
  | .hbm, ⟨11, _⟩ => ⟨S4096x32x128, .f32⟩
  | .hbm, ⟨12, _⟩ => ⟨S4096x32x1, .f32⟩
  | .hbm, ⟨13, _⟩ => ⟨S4096x32x128, .f32⟩
  | .hbm, ⟨14, _⟩ => ⟨S4096x32x128, .f32⟩
  | .hbm, ⟨15, _⟩ => ⟨S4096x4096, .f32⟩
  | .hbm, ⟨16, _⟩ => ⟨S4096x4096, .f32⟩
  | .hbm, ⟨17, _⟩ => ⟨S8192x4096, .f32⟩
  | .hbm, ⟨18, _⟩ => ⟨S16x4096, .f32⟩
  | .hbm, ⟨19, _⟩ => ⟨S16x4096, .f32⟩
  | .hbm, ⟨20, _⟩ => ⟨S4096x16, .f32⟩
  | .hbm, ⟨21, _⟩ => ⟨S8192x16, .f32⟩
  | .hbm, ⟨22, _⟩ => ⟨S16x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  transposes_S4096x4096_S4096x4096_1_0 : S4096x4096.Transposes [1, 0] S4096x4096
  bcast_S16x1_S16x4096_0_1 : S16x1.BroadcastsInDim S16x4096 (![0, 1] : Fin 2 → Fin S16x4096.rank)
  transposes_S16x4096_S4096x16_1_0 : S16x4096.Transposes [1, 0] S4096x16
  transposes_S4096x16_S16x4096_1_0 : S4096x16.Transposes [1, 0] S16x4096
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.Pieces.lean ====
/-
  What one run of the kernel body leaves behind, as values.

  The body keeps two accumulators between grid points: `main` (a [1024, 512] tile of the big product) and `low`
  (a [1024, 16] tile of the adapter's first product). Each run adds one 1024-column partial product into each; the
  first run of a tile starts both from a zero block it has just stored, and the last run also stores the output tile
  `main + (low · Bᵀ) · c`. Every store covers its whole buffer and every load reads a whole buffer, so what a buffer
  holds after the run is the payload of the last store into it, evaluated at the loaded blocks.
-/
import proofs.«137011_j68942815036086_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- One more partial product added into the `main` accumulator `acc`. -/
abbrev mainStep (x0 : Vec F S1024x1024 .f32) (x1 : Vec F S512x1024 .i32) (x2 x3 : Vec F S8x512 .f32)
    (acc : Vec F S1024x512 .f32) : Vec F S1024x512 .f32 := k0_pay6 x1 x2 x3 x0 acc

/-- One more partial product added into the `low` accumulator `acc`. -/
abbrev lowStep (x0 : Vec F S1024x1024 .f32) (x4 : Vec F S16x1024 .f32) (x5 : Vec F S16x1 .f32)
    (acc : Vec F S1024x16 .f32) : Vec F S1024x16 .f32 := k0_pay1 (k0_pay7 x0 x4 x5) acc

/-- A first run leaves `main` at zero plus its partial product. -/
theorem main_first (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S16x1024 .f32) (harg7 : arg7.IsWhole) (arg8 : Memref sig .tc .vmem S16x1 .f32) (harg8 : arg8.IsWhole) (arg9 : Memref sig .tc .vmem S512x16 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : cond0_0 i) (hc1 : ¬cond0_1 i) (x0 : Vec F S1024x1024 .f32) (x1 : Vec F S512x1024 .i32) (x2 : Vec F S8x512 .f32) (x3 : Vec F S8x512 .f32) (x4 : Vec F S16x1024 .f32) (x5 : Vec F S16x1 .f32) (x6 : Vec F S512x16 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6 = mainStep x0 x1 x2 x3 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg7.read_unread, harg8.read_unread, harg9.read_unread, harg11.read_unread, harg12.read_unread,
    View.ld_unit_zero (S := S1024x1024) hz, View.ld_unit_zero (S := S512x1024) hz, View.ld_unit_zero (S := S8x512) hz, View.ld_unit_zero (S := S16x1024) hz,
    View.ld_unit_zero (S := S16x1) hz, View.ld_unit_zero (S := S512x16) hz, View.ld_unit_zero (S := S1024x512) hz, View.ld_unit_zero (S := S1024x16) hz]

/-- A first run leaves `low` at zero plus its partial product. -/
theorem low_first (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S16x1024 .f32) (harg7 : arg7.IsWhole) (arg8 : Memref sig .tc .vmem S16x1 .f32) (harg8 : arg8.IsWhole) (arg9 : Memref sig .tc .vmem S512x16 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : cond0_0 i) (hc1 : ¬cond0_1 i) (x0 : Vec F S1024x1024 .f32) (x1 : Vec F S512x1024 .i32) (x2 : Vec F S8x512 .f32) (x3 : Vec F S8x512 .f32) (x4 : Vec F S16x1024 .f32) (x5 : Vec F S16x1 .f32) (x6 : Vec F S512x16 .f32) :
    sout0_A_1 c i arg3 harg3 arg4 harg4 arg5 harg5 arg6 harg6 arg7 harg7 arg8 harg8 arg9 harg9 arg10 harg10 arg11 harg11 arg12 harg12 hc0 hc1 x0 x1 x2 x3 x4 x5 x6 = lowStep x0 x4 x5 (k0_pay4 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x16) hz, View.readCov_unit_zero (S := S1024x16) _ hz]
  simp only [View.readAt_eq_ld, harg3.read_unread, harg4.read_unread, harg5.read_unread, harg6.read_unread, harg7.read_unread, harg8.read_unread, harg9.read_unread, harg11.read_unread, harg12.read_unread,
    View.ld_unit_zero (S := S1024x1024) hz, View.ld_unit_zero (S := S512x1024) hz, View.ld_unit_zero (S := S8x512) hz, View.ld_unit_zero (S := S16x1024) hz,
    View.ld_unit_zero (S := S16x1) hz, View.ld_unit_zero (S := S512x16) hz, View.ld_unit_zero (S := S1024x512) hz, View.ld_unit_zero (S := S1024x16) hz]

/-- A middle run adds its partial product to what `main` held. -/
theorem main_mid (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S16x1024 .f32) (harg7 : arg7.IsWhole) (arg8 : Memref sig .tc .vmem S16x1 .f32) (harg8 : arg8.IsWhole) (arg9 : Memref sig .tc .vmem S512x16 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : ¬cond0_0 i) (hc1 : ¬cond0_1 i) (x0 : Vec F S1024x1024 .f32) (x1 : Vec F S512x1024 .i32) (x2 : Vec F S8x512 .f32) (x3 : Vec F S8x512 .f32) (x4 : Vec F S16x1024 .f32) (x5 : Vec F S16x1 .f32) (x6 : Vec F S512x16 .f32) (xs0 : Vec F S1024x512 .f32) (xs1 : Vec F S1024x16 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 xs1 = mainStep x0 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero (S := S1024x512) hz]
  simp only [View.readAt_eq_ld, harg3.read_unread, harg4.read_unread, harg5.read_unread, harg6.read_unread, harg7.read_unread, harg8.read_unread, harg9.read_unread, harg11.read_unread, harg12.read_unread,
    View.ld_unit_zero (S := S1024x1024) hz, View.ld_unit_zero (S := S512x1024) hz, View.ld_unit_zero (S := S8x512) hz, View.ld_unit_zero (S := S16x1024) hz,
    View.ld_unit_zero (S := S16x1) hz, View.ld_unit_zero (S := S512x16) hz, View.ld_unit_zero (S := S1024x512) hz, View.ld_unit_zero (S := S1024x16) hz]

/-- A middle run adds its partial product to what `low` held. -/
theorem low_mid (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S16x1024 .f32) (harg7 : arg7.IsWhole) (arg8 : Memref sig .tc .vmem S16x1 .f32) (harg8 : arg8.IsWhole) (arg9 : Memref sig .tc .vmem S512x16 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : ¬cond0_0 i) (hc1 : ¬cond0_1 i) (x0 : Vec F S1024x1024 .f32) (x1 : Vec F S512x1024 .i32) (x2 : Vec F S8x512 .f32) (x3 : Vec F S8x512 .f32) (x4 : Vec F S16x1024 .f32) (x5 : Vec F S16x1 .f32) (x6 : Vec F S512x16 .f32) (xs0 : Vec F S1024x512 .f32) (xs1 : Vec F S1024x16 .f32) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1 = lowStep x0 x4 x5 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero (S := S1024x16) hz]
  simp only [View.readAt_eq_ld, harg3.read_unread, harg4.read_unread, harg5.read_unread, harg6.read_unread, harg7.read_unread, harg8.read_unread, harg9.read_unread, harg11.read_unread, harg12.read_unread,
    View.ld_unit_zero (S := S1024x1024) hz, View.ld_unit_zero (S := S512x1024) hz, View.ld_unit_zero (S := S8x512) hz, View.ld_unit_zero (S := S16x1024) hz,
    View.ld_unit_zero (S := S16x1) hz, View.ld_unit_zero (S := S512x16) hz, View.ld_unit_zero (S := S1024x512) hz, View.ld_unit_zero (S := S1024x16) hz]

/-- A last run adds its partial product to what `main` held … -/
theorem main_last (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S16x1024 .f32) (harg7 : arg7.IsWhole) (arg8 : Memref sig .tc .vmem S16x1 .f32) (harg8 : arg8.IsWhole) (arg9 : Memref sig .tc .vmem S512x16 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : ¬cond0_0 i) (hc1 : cond0_1 i) (x0 : Vec F S1024x1024 .f32) (x1 : Vec F S512x1024 .i32) (x2 : Vec F S8x512 .f32) (x3 : Vec F S8x512 .f32) (x4 : Vec F S16x1024 .f32) (x5 : Vec F S16x1 .f32) (x6 : Vec F S512x16 .f32) (xs0 : Vec F S1024x512 .f32) (xs1 : Vec F S1024x16 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 xs1 = mainStep x0 x1 x2 x3 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero (S := S1024x512) hz]
  simp only [View.readAt_eq_ld, harg3.read_unread, harg4.read_unread, harg5.read_unread, harg6.read_unread, harg7.read_unread, harg8.read_unread, harg9.read_unread, harg11.read_unread, harg12.read_unread,
    View.ld_unit_zero (S := S1024x1024) hz, View.ld_unit_zero (S := S512x1024) hz, View.ld_unit_zero (S := S8x512) hz, View.ld_unit_zero (S := S16x1024) hz,
    View.ld_unit_zero (S := S16x1) hz, View.ld_unit_zero (S := S512x16) hz, View.ld_unit_zero (S := S1024x512) hz, View.ld_unit_zero (S := S1024x16) hz]

/-- … and to what `low` held … -/
theorem low_last (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S16x1024 .f32) (harg7 : arg7.IsWhole) (arg8 : Memref sig .tc .vmem S16x1 .f32) (harg8 : arg8.IsWhole) (arg9 : Memref sig .tc .vmem S512x16 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : ¬cond0_0 i) (hc1 : cond0_1 i) (x0 : Vec F S1024x1024 .f32) (x1 : Vec F S512x1024 .i32) (x2 : Vec F S8x512 .f32) (x3 : Vec F S8x512 .f32) (x4 : Vec F S16x1024 .f32) (x5 : Vec F S16x1 .f32) (x6 : Vec F S512x16 .f32) (xs0 : Vec F S1024x512 .f32) (xs1 : Vec F S1024x16 .f32) :
    sout0_C_1 c i arg3 harg3 arg4 harg4 arg5 harg5 arg6 harg6 arg7 harg7 arg8 harg8 arg9 harg9 arg10 harg10 arg11 harg11 arg12 harg12 hc0 hc1 x0 x1 x2 x3 x4 x5 x6 xs0 xs1 = lowStep x0 x4 x5 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero (S := S1024x16) hz]
  simp only [View.readAt_eq_ld, harg3.read_unread, harg4.read_unread, harg5.read_unread, harg6.read_unread, harg7.read_unread, harg8.read_unread, harg9.read_unread, harg11.read_unread, harg12.read_unread,
    View.ld_unit_zero (S := S1024x1024) hz, View.ld_unit_zero (S := S512x1024) hz, View.ld_unit_zero (S := S8x512) hz, View.ld_unit_zero (S := S16x1024) hz,
    View.ld_unit_zero (S := S16x1) hz, View.ld_unit_zero (S := S512x16) hz, View.ld_unit_zero (S := S1024x512) hz, View.ld_unit_zero (S := S1024x16) hz]

/-- … and stores the output tile: the finished `main` plus the finished `low` times `Bᵀ`, scaled. -/
theorem out_last (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S16x1024 .f32) (harg7 : arg7.IsWhole) (arg8 : Memref sig .tc .vmem S16x1 .f32) (harg8 : arg8.IsWhole) (arg9 : Memref sig .tc .vmem S512x16 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x16 .f32) (harg12 : arg12.IsWhole) (hc0 : ¬cond0_0 i) (hc1 : cond0_1 i) (x0 : Vec F S1024x1024 .f32) (x1 : Vec F S512x1024 .i32) (x2 : Vec F S8x512 .f32) (x3 : Vec F S8x512 .f32) (x4 : Vec F S16x1024 .f32) (x5 : Vec F S16x1 .f32) (x6 : Vec F S512x16 .f32) (xs0 : Vec F S1024x512 .f32) (xs1 : Vec F S1024x16 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 x6 (lowStep x0 x4 x5 xs1) (mainStep x0 x1 x2 x3 xs0) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero (S := S1024x512) hz, View.readCov_unit_zero (S := S1024x16) _ hz,
    View.readCov_unit_zero (S := S1024x512) _ hz]
  simp only [View.readAt_eq_ld, harg3.read_unread, harg4.read_unread, harg5.read_unread, harg6.read_unread, harg7.read_unread, harg8.read_unread, harg9.read_unread, harg11.read_unread, harg12.read_unread,
    View.ld_unit_zero (S := S1024x1024) hz, View.ld_unit_zero (S := S512x1024) hz, View.ld_unit_zero (S := S8x512) hz, View.ld_unit_zero (S := S16x1024) hz,
    View.ld_unit_zero (S := S16x1) hz, View.ld_unit_zero (S := S512x16) hz, View.ld_unit_zero (S := S1024x512) hz, View.ld_unit_zero (S := S1024x16) hz]

end Cert.KernelIdeal.Pieces

end
-- ==== Proof.Chain.lean ====
/-
  The two accumulators over a run of four grid points, and the tile the last of them writes.

  The points `4u, 4u+1, 4u+2, 4u+3` share their row block and channel block and walk the four runs of columns. The
  first resets both accumulators and adds its partial products; each later one adds its own to what the point before
  left; the last also stores the output tile. So at a point `t ≡ 3 (mod 4)` the stored tile is the output payload of
  the two four-step chains, each started from its zero block.
-/
import proofs.«137011_j68942815036086_1_alg».proof.Proof.Pieces

noncomputable section

namespace Cert.KernelIdeal.Chain

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- The point before `t` (point 0 is its own predecessor; it is never asked for). -/
abbrev prev (t : Fin cfg0.N) : Fin cfg0.N := ⟨t.val - 1, Nat.lt_of_le_of_lt (Nat.sub_le _ _) t.isLt⟩

/-- After a first point: zero plus that point's partial products. -/
theorem acc_first (c : Dev nD) (t : Fin cfg0.N) (h0 : t.val % 4 = 0) :
    (outsAt0 m c t.val t.isLt).2.1 = (mainStep (iblk m c 0 t) (iblk m c 1 t) (iblk m c 2 t) (iblk m c 3 t) (k0_pay3 (F := F)))
    ∧ (outsAt0 m c t.val t.isLt).2.2 = (lowStep (iblk m c 0 t) (iblk m c 4 t) (iblk m c 5 t) (k0_pay4 (F := F))) := by
  have h1 : ¬t.val % 4 = 3 := by omega
  rw [outsAt0_A m c t h0 h1]
  dsimp only
  rw [main_first, low_first]
  exact ⟨rfl, rfl⟩

/-- After a later point: what the point before left plus this point's partial products. -/
theorem acc_next (c : Dev nD) (t : Fin cfg0.N) (h0 : ¬t.val % 4 = 0) :
    (outsAt0 m c t.val t.isLt).2.1 = (mainStep (iblk m c 0 t) (iblk m c 1 t) (iblk m c 2 t) (iblk m c 3 t) (outsAt0 m c (prev t).val (prev t).isLt).2.1)
    ∧ (outsAt0 m c t.val t.isLt).2.2 = (lowStep (iblk m c 0 t) (iblk m c 4 t) (iblk m c 5 t) (outsAt0 m c (prev t).val (prev t).isLt).2.2) := by
  by_cases h1 : t.val % 4 = 3
  · rw [outsAt0_C m c t h0 h1]
    dsimp only
    rw [main_last, low_last]
    exact ⟨rfl, rfl⟩
  · rw [outsAt0_B m c t h0 h1]
    dsimp only
    rw [main_mid, low_mid]
    exact ⟨rfl, rfl⟩

/-- At a last point the stored tile is the output payload of the two accumulators after this point's step. -/
theorem out_at (c : Dev nD) (t : Fin cfg0.N) (h1 : t.val % 4 = 3) :
    (outsAt0 m c t.val t.isLt).1 = k0_pay2 (iblk m c 6 t) (lowStep (iblk m c 0 t) (iblk m c 4 t) (iblk m c 5 t) (outsAt0 m c (prev t).val (prev t).isLt).2.2)
      (mainStep (iblk m c 0 t) (iblk m c 1 t) (iblk m c 2 t) (iblk m c 3 t) (outsAt0 m c (prev t).val (prev t).isLt).2.1) := by
  have h0 : ¬t.val % 4 = 0 := by omega
  rw [outsAt0_C m c t h0 h1]
  dsimp only
  rw [out_last]

/-- THE FOUR-STEP CHAINS: at a point `t ≡ 3 (mod 4)` the stored tile over the blocks of `t − 3, t − 2, t − 1, t`. -/
theorem tile_at (c : Dev nD) (t : Fin cfg0.N) (h : t.val % 4 = 3) :
    (outsAt0 m c t.val t.isLt).1 = k0_pay2 (iblk m c 6 t)
      (lowStep (iblk m c 0 t) (iblk m c 4 t) (iblk m c 5 t) (lowStep (iblk m c 0 (prev t)) (iblk m c 4 (prev t)) (iblk m c 5 (prev t)) (lowStep (iblk m c 0 (prev (prev t))) (iblk m c 4 (prev (prev t))) (iblk m c 5 (prev (prev t))) (lowStep (iblk m c 0 (prev (prev (prev t)))) (iblk m c 4 (prev (prev (prev t)))) (iblk m c 5 (prev (prev (prev t)))) (k0_pay4 (F := F))))))
      (mainStep (iblk m c 0 t) (iblk m c 1 t) (iblk m c 2 t) (iblk m c 3 t) (mainStep (iblk m c 0 (prev t)) (iblk m c 1 (prev t)) (iblk m c 2 (prev t)) (iblk m c 3 (prev t)) (mainStep (iblk m c 0 (prev (prev t))) (iblk m c 1 (prev (prev t))) (iblk m c 2 (prev (prev t))) (iblk m c 3 (prev (prev t))) (mainStep (iblk m c 0 (prev (prev (prev t)))) (iblk m c 1 (prev (prev (prev t)))) (iblk m c 2 (prev (prev (prev t)))) (iblk m c 3 (prev (prev (prev t)))) (k0_pay3 (F := F)))))) := by
  have hN : t.val < 256 := lt_of_lt_of_eq t.isLt (show cfg0.N = 256 from N_0)
  have e1 := acc_next m c (prev t) (by show ¬(t.val - 1) % 4 = 0; omega)
  have e2 := acc_next m c (prev (prev t)) (by show ¬(t.val - 1 - 1) % 4 = 0; omega)
  have e3 := acc_first m c (prev (prev (prev t))) (by show (t.val - 1 - 1 - 1) % 4 = 0; omega)
  rw [out_at m c t h, e1.1, e1.2, e2.1, e2.2, e3.1, e3.2]

end Cert.KernelIdeal.Chain

end
-- ==== Proof.Payload.lean ====
/-
  The kernel body's arithmetic, read one entry at a time over the extended reals.

  The body works on a [512, 1024] tile of integer codes `qw`, an [8, 512] tile each of the transposed scales and zero
  points, a [1024, 1024] tile of `x`, a [16, 1024] tile of `A`, the [16, 1] column `E` and a [512, 16] tile of `B`.
  It dequantizes the weight tile by viewing its 1024 columns as 8 groups of 128, transposing the [8, 512] scale and
  zero tiles so that the group axis lines up, and broadcasting each group's value along its 128 columns: entry
  (q, b) of the weight tile is `(code[q,b] − zero[b/128, q]) · scale[b/128, q]`. Changes of float format are the
  identity here and each matrix product into a zero block is a plain finite sum, so
    · one more step of the main accumulator adds `∑_b x[p,b] · w[q,b]` at (p, q);
    · one more step of the low-rank accumulator adds `∑_b x[p,b] · (A[r,b] · E[r,0])` at (p, r);
    · the output tile is `main[p,q] + (∑_r low[p,r] · B[q,r]) · c`.
-/
import proofs.«137011_j68942815036086_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The group, within a run of 1024 columns, of column `b`. -/
abbrev grp8 (b : Fin 1024) : Fin 8 := ⟨b.val / 128, by have := b.isLt; omega⟩
/-- The place of column `b` within its group. -/
abbrev lane (b : Fin 1024) : Fin 128 := ⟨b.val % 128, Nat.mod_lt _ (by decide)⟩

/-- A column is its group's first column plus its place in the group. -/
theorem col_eq (b : Fin 1024) (h : 128 * (grp8 b).val + (lane b).val < 1024) :
    (⟨128 * (grp8 b).val + (lane b).val, h⟩ : Fin 1024) = b :=
  Fin.ext (by show 128 * (b.val / 128) + b.val % 128 = b.val; omega)

/-! ## The layout operations of the dequantization, each read at an index given by coordinates -/

section Layout
variable {α : Type}

/-- 1024 columns viewed as 8 groups of 128: (q, g, l) reads column `128 g + l`. -/
theorem split_apply (x : S512x1024.Idx → α) (h : S512x1024.ShapeCasts S512x8x128) (q : Fin 512) (g : Fin 8) (l : Fin 128) :
    shapeCast S512x8x128 x h (ix3 q g l) = x (ix2 q ⟨128 * g.val + l.val, by have := g.isLt; have := l.isLt; omega⟩) :=
  shapeCast_apply x h _ _ (by
    rw [Shape.rowMajor_val_two, Shape.rowMajor_val_three]
    show q.val * 1024 + (128 * g.val + l.val) = (q.val * 8 + g.val) * 128 + l.val
    omega)

/-- The groups flattened back: column `b` reads group `b / 128`, place `b % 128`. -/
theorem merge_apply (x : S512x8x128.Idx → α) (h : S512x8x128.ShapeCasts S512x1024) (q : Fin 512) (b : Fin 1024) :
    shapeCast S512x1024 x h (ix2 q b) = x (ix3 q (grp8 b) (lane b)) :=
  shapeCast_apply x h _ _ (by
    rw [Shape.rowMajor_val_three, Shape.rowMajor_val_two]
    show (q.val * 8 + b.val / 128) * 128 + b.val % 128 = q.val * 1024 + b.val
    omega)

/-- A trailing unit axis added to a matrix. -/
theorem keep_apply (x : S512x8.Idx → α) (h : S512x8.ShapeCasts S512x8x1) (q : Fin 512) (g : Fin 8) (u : Fin 1) :
    shapeCast S512x8x1 x h (ix3 q g u) = x (ix2 q g) :=
  shapeCast_apply x h _ _ (by
    have hu : u.val = 0 := by omega
    rw [Shape.rowMajor_val_two, Shape.rowMajor_val_three]
    show q.val * 8 + g.val = (q.val * 8 + g.val) * 1 + u.val
    omega)

/-- A group's one value spread along its 128 columns. -/
theorem spread_apply (x : S512x8x1.Idx → α) (h : S512x8x1.Broadcasts S512x8x128) (q : Fin 512) (g : Fin 8) (l : Fin 128) :
    broadcastTo S512x8x128 x h (ix3 q g l) = x (ix3 q g (0 : Fin 1)) := by
  refine broadcastTo_apply x h (ix3 q g l) (ix3 q g (0 : Fin 1)) fun ax => ?_
  match ax with
  | ⟨0, _⟩ => rfl
  | ⟨1, _⟩ => rfl
  | ⟨2, _⟩ => rfl

/-- The column `E` spread along the 1024 columns of `A`'s tile. -/
theorem colspread_apply (x : S16x1.Idx → α) (h : S16x1.Broadcasts S16x1024) (r : Fin 16) (b : Fin 1024) :
    broadcastTo S16x1024 x h (ix2 r b) = x (ix2 r (0 : Fin 1)) := by
  refine broadcastTo_apply x h (ix2 r b) (ix2 r (0 : Fin 1)) fun ax => ?_
  match ax with
  | ⟨0, _⟩ => rfl
  | ⟨1, _⟩ => rfl

end Layout

/-! The operand indices of the three tile products. Each contracts both operands along their SECOND axis: entry (p, q) of the result pairs row p of the left operand with row q of the right one. -/

abbrev dMain := dot_S1024x1024_S512x1024_S1024x512_1_1_0_0_n_n

theorem dMain_l0 (i : S1024x512.Idx) (k : dMain.contr.Idx) : (dMain.lhsIdx i k 0).val = (i 0).val := by
  unfold DotDims.lhsIdx
  rw [dif_neg (show ¬(0 : Fin S1024x1024.rank) ∈ dMain.lhsBatch by decide),
    dif_pos (show (0 : Fin S1024x1024.rank) ∈ dMain.lhsNonContracting by decide)]
  rfl
theorem dMain_l1 (i : S1024x512.Idx) (k : dMain.contr.Idx) : (dMain.lhsIdx i k 1).val = (k ⟨0, by decide⟩).val :=
  dMain.lhsIdx_val_of_single rfl i k
theorem dMain_r0 (i : S1024x512.Idx) (k : dMain.contr.Idx) : (dMain.rhsIdx i k 0).val = (i 1).val := by
  unfold DotDims.rhsIdx
  rw [dif_neg (show ¬(0 : Fin S512x1024.rank) ∈ dMain.rhsBatch by decide),
    dif_pos (show (0 : Fin S512x1024.rank) ∈ dMain.rhsNonContracting by decide)]
  rfl
theorem dMain_r1 (i : S1024x512.Idx) (k : dMain.contr.Idx) : (dMain.rhsIdx i k 1).val = (k ⟨0, by decide⟩).val :=
  dMain.rhsIdx_val_of_single rfl i k

theorem dMain_lhs (p : Fin 1024) (q : Fin 512) (b : Fin 1024) :
    dMain.lhsIdx (ix2 p q) ((contrEquiv1 dMain 1024 rfl rfl).symm b) = ix2 p b := by
  have hk := contrEquiv1_symm_val dMain 1024 rfl rfl b
  funext a
  refine Fin.ext ?_
  match a with
  | ⟨0, _⟩ => exact dMain_l0 _ _
  | ⟨1, _⟩ => exact (dMain_l1 _ _).trans hk

theorem dMain_rhs (p : Fin 1024) (q : Fin 512) (b : Fin 1024) :
    dMain.rhsIdx (ix2 p q) ((contrEquiv1 dMain 1024 rfl rfl).symm b) = ix2 q b := by
  have hk := contrEquiv1_symm_val dMain 1024 rfl rfl b
  funext a
  refine Fin.ext ?_
  match a with
  | ⟨0, _⟩ => exact dMain_r0 _ _
  | ⟨1, _⟩ => exact (dMain_r1 _ _).trans hk

/-! The adapter's first product, a tile of `x · (A·E)ᵀ`. -/

abbrev dLow := dot_S1024x1024_S16x1024_S1024x16_1_1_0_0_n_n

theorem dLow_l0 (i : S1024x16.Idx) (k : dLow.contr.Idx) : (dLow.lhsIdx i k 0).val = (i 0).val := by
  unfold DotDims.lhsIdx
  rw [dif_neg (show ¬(0 : Fin S1024x1024.rank) ∈ dLow.lhsBatch by decide),
    dif_pos (show (0 : Fin S1024x1024.rank) ∈ dLow.lhsNonContracting by decide)]
  rfl
theorem dLow_l1 (i : S1024x16.Idx) (k : dLow.contr.Idx) : (dLow.lhsIdx i k 1).val = (k ⟨0, by decide⟩).val :=
  dLow.lhsIdx_val_of_single rfl i k
theorem dLow_r0 (i : S1024x16.Idx) (k : dLow.contr.Idx) : (dLow.rhsIdx i k 0).val = (i 1).val := by
  unfold DotDims.rhsIdx
  rw [dif_neg (show ¬(0 : Fin S16x1024.rank) ∈ dLow.rhsBatch by decide),
    dif_pos (show (0 : Fin S16x1024.rank) ∈ dLow.rhsNonContracting by decide)]
  rfl
theorem dLow_r1 (i : S1024x16.Idx) (k : dLow.contr.Idx) : (dLow.rhsIdx i k 1).val = (k ⟨0, by decide⟩).val :=
  dLow.rhsIdx_val_of_single rfl i k

theorem dLow_lhs (p : Fin 1024) (q : Fin 16) (b : Fin 1024) :
    dLow.lhsIdx (ix2 p q) ((contrEquiv1 dLow 1024 rfl rfl).symm b) = ix2 p b := by
  have hk := contrEquiv1_symm_val dLow 1024 rfl rfl b
  funext a
  refine Fin.ext ?_
  match a with
  | ⟨0, _⟩ => exact dLow_l0 _ _
  | ⟨1, _⟩ => exact (dLow_l1 _ _).trans hk

theorem dLow_rhs (p : Fin 1024) (q : Fin 16) (b : Fin 1024) :
    dLow.rhsIdx (ix2 p q) ((contrEquiv1 dLow 1024 rfl rfl).symm b) = ix2 q b := by
  have hk := contrEquiv1_symm_val dLow 1024 rfl rfl b
  funext a
  refine Fin.ext ?_
  match a with
  | ⟨0, _⟩ => exact dLow_r0 _ _
  | ⟨1, _⟩ => exact (dLow_r1 _ _).trans hk

/-! The adapter's second product, a tile of `low · Bᵀ`. -/

abbrev dOut := dot_S1024x16_S512x16_S1024x512_1_1_0_0_n_n

theorem dOut_l0 (i : S1024x512.Idx) (k : dOut.contr.Idx) : (dOut.lhsIdx i k 0).val = (i 0).val := by
  unfold DotDims.lhsIdx
  rw [dif_neg (show ¬(0 : Fin S1024x16.rank) ∈ dOut.lhsBatch by decide),
    dif_pos (show (0 : Fin S1024x16.rank) ∈ dOut.lhsNonContracting by decide)]
  rfl
theorem dOut_l1 (i : S1024x512.Idx) (k : dOut.contr.Idx) : (dOut.lhsIdx i k 1).val = (k ⟨0, by decide⟩).val :=
  dOut.lhsIdx_val_of_single rfl i k
theorem dOut_r0 (i : S1024x512.Idx) (k : dOut.contr.Idx) : (dOut.rhsIdx i k 0).val = (i 1).val := by
  unfold DotDims.rhsIdx
  rw [dif_neg (show ¬(0 : Fin S512x16.rank) ∈ dOut.rhsBatch by decide),
    dif_pos (show (0 : Fin S512x16.rank) ∈ dOut.rhsNonContracting by decide)]
  rfl
theorem dOut_r1 (i : S1024x512.Idx) (k : dOut.contr.Idx) : (dOut.rhsIdx i k 1).val = (k ⟨0, by decide⟩).val :=
  dOut.rhsIdx_val_of_single rfl i k

theorem dOut_lhs (p : Fin 1024) (q : Fin 512) (b : Fin 16) :
    dOut.lhsIdx (ix2 p q) ((contrEquiv1 dOut 16 rfl rfl).symm b) = ix2 p b := by
  have hk := contrEquiv1_symm_val dOut 16 rfl rfl b
  funext a
  refine Fin.ext ?_
  match a with
  | ⟨0, _⟩ => exact dOut_l0 _ _
  | ⟨1, _⟩ => exact (dOut_l1 _ _).trans hk

theorem dOut_rhs (p : Fin 1024) (q : Fin 512) (b : Fin 16) :
    dOut.rhsIdx (ix2 p q) ((contrEquiv1 dOut 16 rfl rfl).symm b) = ix2 q b := by
  have hk := contrEquiv1_symm_val dOut 16 rfl rfl b
  funext a
  refine Fin.ext ?_
  match a with
  | ⟨0, _⟩ => exact dOut_r0 _ _
  | ⟨1, _⟩ => exact (dOut_r1 _ _).trans hk

/-! ## The payloads at an entry -/

/-- One step of the main accumulator: the tile product of `x` with the dequantized weights, added to `acc`. -/
theorem mainStep_apply (x0 : FVec Ideal S1024x1024 .f32) (x1 : IVec S512x1024 32) (x2 x3 : FVec Ideal S8x512 .f32)
    (acc : FVec Ideal S1024x512 .f32) (p : Fin 1024) (q : Fin 512) :
    k0_pay6 (F := Ideal) x1 x2 x3 x0 acc (ix2 p q)
      = acc (ix2 p q) + ∑ b : Fin 1024, x0 (ix2 p b)
          * ((FloatOps.sitofp (F := Ideal) .f32 (x1 (ix2 q b)) - x3 (ix2 (grp8 b) q)) * x2 (ix2 (grp8 b) q)) := by
  unfold k0_pay6 k0_pay5
  refine (congrFun (shapeCast_self _ _) _).trans ?_
  refine congrArg (acc (ix2 p q) + ·) ?_
  simp only [matmul]
  refine (Ideal.matmul_constant_zero_apply _ none _ _ (ix2 p q)).trans ?_
  rw [← Equiv.sum_comp (contrEquiv1 dMain 1024 rfl rfl).symm]
  refine Finset.sum_congr rfl fun b _ => ?_
  rw [dMain_lhs, dMain_rhs]
  refine congrArg (x0 (ix2 p b) * ·) ?_
  refine (truncf_apply _ bitsLt_bf16_f32 (ix2 q b)).trans ?_
  refine (merge_apply _ _ q b).trans ?_
  simp only [mulf_apply, subf_apply]
  rw [split_apply, spread_apply, spread_apply, keep_apply, keep_apply, transpose_ix2_apply, transpose_ix2_apply,
    shapeCast_self, shapeCast_self, col_eq]
  rfl

/-- One step of the low-rank accumulator: the tile product of `x` with `A · E`, added to `acc`. -/
theorem lowStep_apply (x0 : FVec Ideal S1024x1024 .f32) (x4 : FVec Ideal S16x1024 .f32) (x5 : FVec Ideal S16x1 .f32)
    (acc : FVec Ideal S1024x16 .f32) (p : Fin 1024) (r : Fin 16) :
    k0_pay1 (F := Ideal) (k0_pay7 x0 x4 x5) acc (ix2 p r)
      = acc (ix2 p r) + ∑ b : Fin 1024, x0 (ix2 p b) * (x4 (ix2 r b) * x5 (ix2 r (0 : Fin 1))) := by
  unfold k0_pay1 k0_pay7 k0_pay5
  refine (congrFun (shapeCast_self _ _) _).trans ?_
  refine congrArg (acc (ix2 p r) + ·) ?_
  simp only [matmul]
  refine (Ideal.matmul_constant_zero_apply _ none _ _ (ix2 p r)).trans ?_
  rw [← Equiv.sum_comp (contrEquiv1 dLow 1024 rfl rfl).symm]
  refine Finset.sum_congr rfl fun b _ => ?_
  rw [dLow_lhs, dLow_rhs]
  refine congrArg (x0 (ix2 p b) * ·) ?_
  refine (truncf_apply _ bitsLt_bf16_f32 (ix2 r b)).trans ?_
  simp only [mulf_apply]
  rw [colspread_apply]

/-- The output tile: the main accumulator plus the low-rank accumulator times `Bᵀ`, scaled by the literal. -/
theorem out_apply (x6 : FVec Ideal S512x16 .f32) (lo : FVec Ideal S1024x16 .f32) (mn : FVec Ideal S1024x512 .f32)
    (p : Fin 1024) (q : Fin 512) :
    k0_pay2 (F := Ideal) x6 lo mn (ix2 p q)
      = mn (ix2 p q) + (∑ r : Fin 16, lo (ix2 p r) * x6 (ix2 q r)) * Ideal.ofBits .f32 0x3F7FFFF6#32 := by
  unfold k0_pay2
  refine congrArg (mn (ix2 p q) + ·) ?_
  refine congrArg (· * Ideal.ofBits .f32 0x3F7FFFF6#32) ?_
  simp only [matmul]
  refine (Ideal.matmul_constant_zero_apply _ none _ _ (ix2 p q)).trans ?_
  rw [← Equiv.sum_comp (contrEquiv1 dOut 16 rfl rfl).symm]
  refine Finset.sum_congr rfl fun r _ => ?_
  rw [dOut_lhs, dOut_rhs]
  rfl

/-- The block the main accumulator is reset to is zero everywhere … -/
theorem zeroMain_apply (i : S1024x512.Idx) : k0_pay3 (F := Ideal) i = 0 := by
  unfold k0_pay3
  refine (congrFun (shapeCast_self _ _) _).trans ?_
  exact Ideal.ofBits_zero_f32

/-- … and so is the low-rank accumulator's. -/
theorem zeroLow_apply (i : S1024x16.Idx) : k0_pay4 (F := Ideal) i = 0 := by
  unfold k0_pay4
  refine (congrFun (shapeCast_self _ _) _).trans ?_
  exact Ideal.ofBits_zero_f32

end Cert.KernelIdeal.Payload

end
-- ==== Proof.Blocks.lean ====
/-
  The blocks the body works on at a grid point, read off the argument arrays.

  The 256 points are numbered `t = 32 i + 4 j + k` with `i` the block of 1024 rows, `j` the block of 512 output
  channels and `k` the run of 1024 columns; so `i = t / 32`, `j = t / 4 % 8`, `k = t % 4` (the printed index maps,
  decided once over the grid). A block's entry sits in its array at block index × block size + the entry's own
  coordinate. The scales and zero points reach the kernel transposed by the host, so their [8, 512] block at a point,
  read at (group, channel), is the argument array at (channel, group).
-/
import proofs.«137011_j68942815036086_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The index maps in closed form -/

theorem idx0 : ∀ t : Fin cfg0.N, win0_0.index t 0 = t.val / 32 ∧ win0_0.index t 1 = t.val % 4 :=
  (by decide +kernel : ∀ t : Fin grid0.N, win0_0.index t 0 = t.val / 32 ∧ win0_0.index t 1 = t.val % 4)
theorem idx1 : ∀ t : Fin cfg0.N, win0_1.index t 0 = t.val / 4 % 8 ∧ win0_1.index t 1 = t.val % 4 :=
  (by decide +kernel : ∀ t : Fin grid0.N, win0_1.index t 0 = t.val / 4 % 8 ∧ win0_1.index t 1 = t.val % 4)
theorem idx2 : ∀ t : Fin cfg0.N, win0_2.index t 0 = t.val % 4 ∧ win0_2.index t 1 = t.val / 4 % 8 :=
  (by decide +kernel : ∀ t : Fin grid0.N, win0_2.index t 0 = t.val % 4 ∧ win0_2.index t 1 = t.val / 4 % 8)
theorem idx3 : ∀ t : Fin cfg0.N, win0_3.index t 0 = t.val % 4 ∧ win0_3.index t 1 = t.val / 4 % 8 :=
  (by decide +kernel : ∀ t : Fin grid0.N, win0_3.index t 0 = t.val % 4 ∧ win0_3.index t 1 = t.val / 4 % 8)
theorem idx4 : ∀ t : Fin cfg0.N, win0_4.index t 0 = 0 ∧ win0_4.index t 1 = t.val % 4 :=
  (by decide +kernel : ∀ t : Fin grid0.N, win0_4.index t 0 = 0 ∧ win0_4.index t 1 = t.val % 4)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val / 4 % 8 ∧ win0_6.index t 1 = 0 :=
  (by decide +kernel : ∀ t : Fin grid0.N, win0_6.index t 0 = t.val / 4 % 8 ∧ win0_6.index t 1 = 0)
theorem idx7 : ∀ t : Fin cfg0.N, win0_7.index t 0 = t.val / 32 ∧ win0_7.index t 1 = t.val / 4 % 8 :=
  (by decide +kernel : ∀ t : Fin grid0.N, win0_7.index t 0 = t.val / 32 ∧ win0_7.index t 1 = t.val / 4 % 8)

/-! ## The two arrays the host transposes before the launch -/

theorem scalesT (c : Dev nD) : (V m c main_v0 : S32x4096.Idx → Elt F .f32)
    = transpose S32x4096 [1, 0] (m ((c : Thread nD τ).loc main_arg2)) Facts₀.transposes_S4096x32_S32x4096_1_0 := by
  dsimp only [V, hostOps0]
  after_results

theorem zerosT (c : Dev nD) : (V m c main_v1 : S32x4096.Idx → Elt F .f32)
    = transpose S32x4096 [1, 0] (m ((c : Thread nD τ).loc main_arg3)) Facts₀.transposes_S4096x32_S32x4096_1_0 := by
  dsimp only [V, hostOps0]
  after_results

/-! ## Each input block at an entry -/

/-- `x`: rows `1024 i ..`, columns `1024 k ..`. -/
theorem iblk0_apply (c : Dev nD) (t : Fin cfg0.N) (p b : Fin 1024) (i : S8192x4096.Idx)
    (h0 : (i 0).val = 1024 * (t.val / 32) + p.val) (h1 : (i 1).val = 1024 * (t.val % 4) + b.val) :
    (iblk m c 0 t : Vec F S1024x1024 .f32) (ix2 p b) = m ((c : Thread nD τ).loc main_arg0) i := by
  have hi := idx0 t
  unfold iblk
  rw [View.read_apply]
  show V m c main_arg0 _ = _
  rw [V_main_arg0]
  refine congrArg _ (funext fun a => Fin.ext ?_)
  match a with
  | ⟨0, _⟩ => show win0_0.index t 0 * 1024 + 1 * p.val = (i 0).val; rw [hi.1, h0]; omega
  | ⟨1, _⟩ => show win0_0.index t 1 * 1024 + 1 * b.val = (i 1).val; rw [hi.2, h1]; omega

/-- The integer codes: channels `512 j ..`, columns `1024 k ..`. -/
theorem iblk1_apply (c : Dev nD) (t : Fin cfg0.N) (q : Fin 512) (b : Fin 1024) (i : S4096x4096.Idx)
    (h0 : (i 0).val = 512 * (t.val / 4 % 8) + q.val) (h1 : (i 1).val = 1024 * (t.val % 4) + b.val) :
    (iblk m c 1 t : Vec F S512x1024 .i32) (ix2 q b) = m ((c : Thread nD τ).loc main_arg1) i := by
  have hi := idx1 t
  unfold iblk
  rw [View.read_apply]
  show V m c main_arg1 _ = _
  rw [V_main_arg1]
  refine congrArg _ (funext fun a => Fin.ext ?_)
  match a with
  | ⟨0, _⟩ => show win0_1.index t 0 * 512 + 1 * q.val = (i 0).val; rw [hi.1, h0]; omega
  | ⟨1, _⟩ => show win0_1.index t 1 * 1024 + 1 * b.val = (i 1).val; rw [hi.2, h1]; omega

/-- The scales: groups `8 k ..`, channels `512 j ..` of the transposed array, that is (channel, group) of the argument. -/
theorem iblk2_apply (c : Dev nD) (t : Fin cfg0.N) (g : Fin 8) (q : Fin 512) (i : S4096x32.Idx)
    (h0 : (i 0).val = 512 * (t.val / 4 % 8) + q.val) (h1 : (i 1).val = 8 * (t.val % 4) + g.val) :
    (iblk m c 2 t : Vec F S8x512 .f32) (ix2 g q) = m ((c : Thread nD τ).loc main_arg2) i := by
  have hi := idx2 t
  unfold iblk
  rw [View.read_apply]
  show V m c main_v0 _ = _
  rw [scalesT]
  refine transpose_apply [1, 0] _ _ _ i fun a => ?_
  match a with
  | ⟨0, _⟩ => show (i 1).val = win0_2.index t 0 * 8 + 1 * g.val; rw [hi.1, h1]; omega
  | ⟨1, _⟩ => show (i 0).val = win0_2.index t 1 * 512 + 1 * q.val; rw [hi.2, h0]; omega

/-- The zero points, likewise. -/
theorem iblk3_apply (c : Dev nD) (t : Fin cfg0.N) (g : Fin 8) (q : Fin 512) (i : S4096x32.Idx)
    (h0 : (i 0).val = 512 * (t.val / 4 % 8) + q.val) (h1 : (i 1).val = 8 * (t.val % 4) + g.val) :
    (iblk m c 3 t : Vec F S8x512 .f32) (ix2 g q) = m ((c : Thread nD τ).loc main_arg3) i := by
  have hi := idx3 t
  unfold iblk
  rw [View.read_apply]
  show V m c main_v1 _ = _
  rw [zerosT]
  refine transpose_apply [1, 0] _ _ _ i fun a => ?_
  match a with
  | ⟨0, _⟩ => show (i 1).val = win0_3.index t 0 * 8 + 1 * g.val; rw [hi.1, h1]; omega
  | ⟨1, _⟩ => show (i 0).val = win0_3.index t 1 * 512 + 1 * q.val; rw [hi.2, h0]; omega

/-- `A`: all 16 rows, columns `1024 k ..`. -/
theorem iblk4_apply (c : Dev nD) (t : Fin cfg0.N) (r : Fin 16) (b : Fin 1024) (i : S16x4096.Idx)
    (h0 : (i 0).val = r.val) (h1 : (i 1).val = 1024 * (t.val % 4) + b.val) :
    (iblk m c 4 t : Vec F S16x1024 .f32) (ix2 r b) = m ((c : Thread nD τ).loc main_arg4) i := by
  have hi := idx4 t
  unfold iblk
  rw [View.read_apply]
  show V m c main_arg4 _ = _
  rw [V_main_arg4]
  refine congrArg _ (funext fun a => Fin.ext ?_)
  match a with
  | ⟨0, _⟩ => show win0_4.index t 0 * 16 + 1 * r.val = (i 0).val; rw [hi.1, h0]; omega
  | ⟨1, _⟩ => show win0_4.index t 1 * 1024 + 1 * b.val = (i 1).val; rw [hi.2, h1]; omega

/-- `E`: the whole column. -/
theorem iblk5_apply (c : Dev nD) (t : Fin cfg0.N) (r : Fin 16) (u : Fin 1) (i : S16x1.Idx)
    (h0 : (i 0).val = r.val) :
    (iblk m c 5 t : Vec F S16x1 .f32) (ix2 r u) = m ((c : Thread nD τ).loc main_arg5) i := by
  have hi := idx5 t
  have hu : u.val = 0 := by omega
  have h1 : (i 1).val = 0 := by have : (i 1).val < 1 := (i 1).isLt; omega
  unfold iblk
  rw [View.read_apply]
  show V m c main_arg5 _ = _
  rw [V_main_arg5]
  refine congrArg _ (funext fun a => Fin.ext ?_)
  match a with
  | ⟨0, _⟩ => show win0_5.index t 0 * 16 + 1 * r.val = (i 0).val; rw [hi.1, h0]; omega
  | ⟨1, _⟩ => show win0_5.index t 1 * 1 + 1 * u.val = (i 1).val; rw [hi.2, h1]; omega

/-- `B`: channels `512 j ..`, all 16 ranks. -/
theorem iblk6_apply (c : Dev nD) (t : Fin cfg0.N) (q : Fin 512) (r : Fin 16) (i : S4096x16.Idx)
    (h0 : (i 0).val = 512 * (t.val / 4 % 8) + q.val) (h1 : (i 1).val = r.val) :
    (iblk m c 6 t : Vec F S512x16 .f32) (ix2 q r) = m ((c : Thread nD τ).loc main_arg6) i := by
  have hi := idx6 t
  unfold iblk
  rw [View.read_apply]
  show V m c main_arg6 _ = _
  rw [V_main_arg6]
  refine congrArg _ (funext fun a => Fin.ext ?_)
  match a with
  | ⟨0, _⟩ => show win0_6.index t 0 * 512 + 1 * q.val = (i 0).val; rw [hi.1, h0]; omega
  | ⟨1, _⟩ => show win0_6.index t 1 * 16 + 1 * r.val = (i 1).val; rw [hi.2, h1]; omega

end Cert.KernelIdeal.Blocks

end
-- ==== Proof.Spec.lean ====
/-
  The function both programs compute, index by index over the extended reals, and the one law that joins the two
  arrangements of its sums.

  A weight entry is the integer code minus its group's zero point, times its group's scale: column `l` of the 4096
  belongs to group `l / 128`. The result at row `p`, output channel `n` is
      ∑ₗ x[p,l] · w[n,l]  +  (∑ᵣ (∑ₗ x[p,l] · (A[r,l] · E[r,0])) · B[n,r]) · c
  with `c` the f32 word 0x3F7FFFF6 read as it stands. The kernel sums over `l` in four runs of 1024 columns, starting
  each accumulator from zero; a sum over 4096 columns is the zero-started chain of the four runs' sums, by
  associativity and commutativity of `+` alone (no finiteness is used: the extended reals are an additive
  commutative monoid).
-/
import Idealize.ShloMosaic.PureOps.Ideal
import Idealize.ShloMosaic.Lib.ValueIdx

noncomputable section

open scoped BigOperators

namespace Cert.DequantLora

open Idealize.ShloMosaic Idealize.ShloMosaic.ValueIdx

/-- The quantization group of column `l`: 128 consecutive columns share a scale and a zero point. -/
abbrev grp (l : Fin 4096) : Fin 32 := ⟨l.val / 128, by have := l.isLt; omega⟩

/-- Column `b` of the `k`-th run of 1024 columns. -/
abbrev col (k : Fin 4) (b : Fin 1024) : Fin 4096 := ⟨1024 * k.val + b.val, by have := k.isLt; have := b.isLt; omega⟩

/-- Row `p` of the `i`-th block of 1024 rows. -/
abbrev row (i : Fin 8) (p : Fin 1024) : Fin 8192 := ⟨1024 * i.val + p.val, by have := i.isLt; have := p.isLt; omega⟩

/-- Output channel `q` of the `j`-th block of 512 channels. -/
abbrev chan (j : Fin 8) (q : Fin 512) : Fin 4096 := ⟨512 * j.val + q.val, by have := j.isLt; have := q.isLt; omega⟩

/-- The dequantized weight at output channel `n`, column `l`. -/
def weight (qw : (⟨2, ![4096, 4096]⟩ : Shape).Idx → BitVec 32) (sc zr : (⟨2, ![4096, 32]⟩ : Shape).Idx → EReal)
    (n l : Fin 4096) : EReal :=
  (FloatOps.sitofp (F := Ideal) .f32 (qw (ix2 n l)) - zr (ix2 n (grp l))) * sc (ix2 n (grp l))

/-- The adapter's first factor with its per-rank scale folded in. -/
def adapt (la : (⟨2, ![16, 4096]⟩ : Shape).Idx → EReal) (le : (⟨2, ![16, 1]⟩ : Shape).Idx → EReal)
    (r : Fin 16) (l : Fin 4096) : EReal :=
  la (ix2 r l) * le (ix2 r (0 : Fin 1))

/-- The scale of the low-rank term, as both programs spell it. -/
abbrev loraScale : EReal := Ideal.ofBits .f32 0x3F7FFFF6#32

/-- THE RESULT: the dequantized matrix product plus the scaled low-rank product. -/
def result (x : (⟨2, ![8192, 4096]⟩ : Shape).Idx → EReal) (qw : (⟨2, ![4096, 4096]⟩ : Shape).Idx → BitVec 32)
    (sc zr : (⟨2, ![4096, 32]⟩ : Shape).Idx → EReal) (la : (⟨2, ![16, 4096]⟩ : Shape).Idx → EReal)
    (le : (⟨2, ![16, 1]⟩ : Shape).Idx → EReal) (lb : (⟨2, ![4096, 16]⟩ : Shape).Idx → EReal) :
    (⟨2, ![8192, 4096]⟩ : Shape).Idx → EReal := fun i =>
  (∑ l : Fin 4096, x (ix2 (i 0) l) * weight qw sc zr (i 1) l)
    + (∑ r : Fin 16, (∑ l : Fin 4096, x (ix2 (i 0) l) * adapt la le r l) * lb (ix2 (i 1) r)) * loraScale

/-- A sum over the 4096 columns is the sum of the four runs' sums. -/
theorem sum_runs {M : Type*} [AddCommMonoid M] (f : Fin 4096 → M) :
    ∑ l : Fin 4096, f l
      = (∑ b : Fin 1024, f (col 0 b)) + (∑ b : Fin 1024, f (col 1 b)) + (∑ b : Fin 1024, f (col 2 b))
        + (∑ b : Fin 1024, f (col 3 b)) := by
  have e : ∀ (k : Fin 4) (b : Fin 1024), (finProdFinEquiv (k, b) : Fin (4 * 1024)) = col k b := fun k b =>
    Fin.ext (by show b.val + 1024 * k.val = 1024 * k.val + b.val; omega)
  rw [← Equiv.sum_comp (finProdFinEquiv (m := 4) (n := 1024)) f, Fintype.sum_prod_type, Fin.sum_univ_four]
  simp only [e]

/-- The kernel's accumulation order: zero, then the four runs added one after the other. -/
theorem chain_eq_sum {M : Type*} [AddCommMonoid M] (f : Fin 4096 → M) :
    (((0 + ∑ b : Fin 1024, f (col 0 b)) + ∑ b : Fin 1024, f (col 1 b)) + ∑ b : Fin 1024, f (col 2 b))
        + ∑ b : Fin 1024, f (col 3 b) = ∑ l : Fin 4096, f l := by
  rw [sum_runs f, zero_add]

end Cert.DequantLora

end
-- ==== Proof.Tile.lean ====
/-
  The tile a last point stores is the specification's tile.

  At a point `t ≡ 3 (mod 4)` with row block `i` and channel block `j`, entry (p, q) of the stored tile is
      (((0 + S₀) + S₁) + S₂) + S₃  +  (∑ᵣ ((((0 + T₀ r) + T₁ r) + T₂ r) + T₃ r) · B[512 j + q, r]) · c
  where `Sₖ` and `Tₖ r` are the sums over the `k`-th run of 1024 columns of `x[1024 i + p, l] · w[512 j + q, l]` and of
  `x[1024 i + p, l] · (A[r,l] · E[r,0])`: the blocks of the four points are the four runs of the same rows and
  channels. Each chain is the sum over all 4096 columns, so the entry is the specification at (1024 i + p, 512 j + q).
-/
import proofs.«137011_j68942815036086_1_alg».proof.Proof.Chain
import proofs.«137011_j68942815036086_1_alg».proof.Proof.Payload
import proofs.«137011_j68942815036086_1_alg».proof.Proof.Blocks
import proofs.«137011_j68942815036086_1_alg».proof.Proof.Spec

noncomputable section

namespace Cert.KernelIdeal.Tile

open Cert.KernelIdeal Cert.KernelIdeal.Gen Cert.KernelIdeal.Pieces Cert.KernelIdeal.Chain Cert.KernelIdeal.Payload
  Cert.KernelIdeal.Blocks Cert.DequantLora Idealize.ShloMosaic Idealize.ShloMosaic.TcCoe Idealize.SL.Sem Idealize.ShloMosaic.ValueIdx

variable (m : (ℓ : Loc nD τ sig) → Buf (Elt Ideal) ℓ)

/-! The argument arrays on core `c`, at their literal shapes. -/
abbrev aX (c : Dev nD) : (⟨2, ![8192, 4096]⟩ : Shape).Idx → EReal := m ((c : Thread nD τ).loc main_arg0)
abbrev aQ (c : Dev nD) : (⟨2, ![4096, 4096]⟩ : Shape).Idx → BitVec 32 := m ((c : Thread nD τ).loc main_arg1)
abbrev aS (c : Dev nD) : (⟨2, ![4096, 32]⟩ : Shape).Idx → EReal := m ((c : Thread nD τ).loc main_arg2)
abbrev aZ (c : Dev nD) : (⟨2, ![4096, 32]⟩ : Shape).Idx → EReal := m ((c : Thread nD τ).loc main_arg3)
abbrev aA (c : Dev nD) : (⟨2, ![16, 4096]⟩ : Shape).Idx → EReal := m ((c : Thread nD τ).loc main_arg4)
abbrev aE (c : Dev nD) : (⟨2, ![16, 1]⟩ : Shape).Idx → EReal := m ((c : Thread nD τ).loc main_arg5)
abbrev aB (c : Dev nD) : (⟨2, ![4096, 16]⟩ : Shape).Idx → EReal := m ((c : Thread nD τ).loc main_arg6)

/-- The specification's result over core `c`'s argument arrays. -/
abbrev spec (c : Dev nD) : (⟨2, ![8192, 4096]⟩ : Shape).Idx → EReal :=
  result (aX m c) (aQ m c) (aS m c) (aZ m c) (aA m c) (aE m c) (aB m c)

/-- One point's step of the main accumulator: its blocks are run `k` of rows `1024 i ..` against channels `512 j ..`. -/
theorem main_tile (c : Dev nD) (t : Fin cfg0.N) (i j : Fin 8) (k : Fin 4) (hi : t.val / 32 = i.val)
    (hj : t.val / 4 % 8 = j.val) (hk : t.val % 4 = k.val) (p : Fin 1024) (q : Fin 512) (acc : FVec Ideal S1024x512 .f32) :
    k0_pay6 (F := Ideal) (iblk m c 1 t) (iblk m c 2 t) (iblk m c 3 t) (iblk m c 0 t) acc (ix2 p q)
      = acc (ix2 p q) + ∑ b : Fin 1024, aX m c (ix2 (row i p) (col k b)) * weight (aQ m c) (aS m c) (aZ m c) (chan j q) (col k b) := by
  rw [mainStep_apply]
  refine congrArg (acc (ix2 p q) + ·) (Finset.sum_congr rfl fun b _ => ?_)
  have hb := b.isLt
  rw [iblk0_apply m c t p b (ix2 (row i p) (col k b)) (by show 1024 * i.val + p.val = _; omega) (by show 1024 * k.val + b.val = _; omega),
    iblk1_apply m c t q b (ix2 (chan j q) (col k b)) (by show 512 * j.val + q.val = _; omega) (by show 1024 * k.val + b.val = _; omega),
    iblk3_apply m c t (grp8 b) q (ix2 (chan j q) (grp (col k b))) (by show 512 * j.val + q.val = _; omega)
      (by show (1024 * k.val + b.val) / 128 = 8 * (t.val % 4) + b.val / 128; omega),
    iblk2_apply m c t (grp8 b) q (ix2 (chan j q) (grp (col k b))) (by show 512 * j.val + q.val = _; omega)
      (by show (1024 * k.val + b.val) / 128 = 8 * (t.val % 4) + b.val / 128; omega)]
  rfl

/-- One point's step of the low-rank accumulator. -/
theorem low_tile (c : Dev nD) (t : Fin cfg0.N) (i : Fin 8) (k : Fin 4) (hi : t.val / 32 = i.val)
    (hk : t.val % 4 = k.val) (p : Fin 1024) (r : Fin 16) (acc : FVec Ideal S1024x16 .f32) :
    k0_pay1 (F := Ideal) (k0_pay7 (iblk m c 0 t) (iblk m c 4 t) (iblk m c 5 t)) acc (ix2 p r)
      = acc (ix2 p r) + ∑ b : Fin 1024, aX m c (ix2 (row i p) (col k b)) * adapt (aA m c) (aE m c) r (col k b) := by
  rw [lowStep_apply]
  refine congrArg (acc (ix2 p r) + ·) (Finset.sum_congr rfl fun b _ => ?_)
  have hb := b.isLt
  rw [iblk0_apply m c t p b (ix2 (row i p) (col k b)) (by show 1024 * i.val + p.val = _; omega) (by show 1024 * k.val + b.val = _; omega),
    iblk4_apply m c t r b (ix2 r (col k b)) rfl (by show 1024 * k.val + b.val = _; omega),
    iblk5_apply m c t r (0 : Fin 1) (ix2 r (0 : Fin 1)) rfl]
  rfl

/-- THE STORED TILE at an entry is the specification there. -/
theorem tile_entry (c : Dev nD) (t : Fin cfg0.N) (h : t.val % 4 = 3) (i j : Fin 8) (hi : t.val / 32 = i.val)
    (hj : t.val / 4 % 8 = j.val) (p : Fin 1024) (q : Fin 512) :
    (outsAt0 m c t.val t.isLt).1 (ix2 p q) = spec m c (ix2 (row i p) (chan j q)) := by
  have hN : t.val < 256 := lt_of_lt_of_eq t.isLt (show cfg0.N = 256 from N_0)
  have i0 : (t.val - 1 - 1 - 1) / 32 = i.val := by omega
  have j0 : (t.val - 1 - 1 - 1) / 4 % 8 = j.val := by omega
  have k0 : (t.val - 1 - 1 - 1) % 4 = (0 : Fin 4).val := by show _ = 0; omega
  have i1 : (t.val - 1 - 1) / 32 = i.val := by omega
  have j1 : (t.val - 1 - 1) / 4 % 8 = j.val := by omega
  have k1 : (t.val - 1 - 1) % 4 = (1 : Fin 4).val := by show _ = 1; omega
  have i2 : (t.val - 1) / 32 = i.val := by omega
  have j2 : (t.val - 1) / 4 % 8 = j.val := by omega
  have k2 : (t.val - 1) % 4 = (2 : Fin 4).val := by show _ = 2; omega
  have k3 : t.val % 4 = (3 : Fin 4).val := by show _ = 3; omega
  rw [tile_at m c t h]
  simp only [mainStep, lowStep]
  rw [out_apply, main_tile m c t i j 3 hi hj k3 p q, main_tile m c (prev t) i j 2 i2 j2 k2 p q,
    main_tile m c (prev (prev t)) i j 1 i1 j1 k1 p q, main_tile m c (prev (prev (prev t))) i j 0 i0 j0 k0 p q, zeroMain_apply]
  rw [chain_eq_sum (fun l => aX m c (ix2 (row i p) l) * weight (aQ m c) (aS m c) (aZ m c) (chan j q) l)]
  show _ = (∑ l : Fin 4096, aX m c (ix2 (row i p) l) * weight (aQ m c) (aS m c) (aZ m c) (chan j q) l)
    + (∑ r : Fin 16, (∑ l : Fin 4096, aX m c (ix2 (row i p) l) * adapt (aA m c) (aE m c) r l) * aB m c (ix2 (chan j q) r)) * loraScale
  refine congrArg (_ + ·) (congrArg (· * loraScale) (Finset.sum_congr rfl fun r _ => ?_))
  rw [low_tile m c t i 3 hi k3 p r, low_tile m c (prev t) i 2 i2 k2 p r, low_tile m c (prev (prev t)) i 1 i1 k1 p r,
    low_tile m c (prev (prev (prev t))) i 0 i0 k0 p r, zeroLow_apply,
    chain_eq_sum (fun l => aX m c (ix2 (row i p) l) * adapt (aA m c) (aE m c) r l),
    iblk6_apply m c t q r (ix2 (chan j q) r) (by show 512 * j.val + q.val = _; omega) rfl]

end Cert.KernelIdeal.Tile

end
-- ==== Proof.KernelValue.lean ====
/-
  The kernel's result array is the specification.

  Only the last point of each run of four writes its tile back. The tiles of those 64 points are the [1024, 512]
  blocks (i, j) of the [8192, 4096] result and cover it: entry (a, b) lies in the block of the point
  `32 (a / 1024) + 4 (b / 512) + 3`. Each tile is the specification's block, so the whole array is the specification.
-/
import proofs.«137011_j68942815036086_1_alg».proof.Proof.Tile
import proofs.«137011_j68942815036086_1_alg».proof.Proof.Gen.KernelIdeal.Value

noncomputable section

namespace Cert.KernelIdeal.RefValue

open Cert.KernelIdeal Cert.KernelIdeal.Gen Cert.KernelIdeal.Tile Cert.KernelIdeal.Blocks Cert.DequantLora
  Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The stored tile, entry by entry, against any index of the result array with the right coordinates. -/
theorem tile_fun (c : Dev nD) (t : Fin cfg0.N) (h : t.val % 4 = 3) (i j : Fin 8) (hi : t.val / 32 = i.val)
    (hj : t.val / 4 % 8 = j.val) (y : S1024x512.Idx) (z : S8192x4096.Idx)
    (h0 : (z 0).val = 1024 * i.val + (y 0).val) (h1 : (z 1).val = 512 * j.val + (y 1).val) :
    (outsAt0 m c t.val t.isLt).1 y = spec m c z := by
  obtain ⟨p, q, rfl⟩ : ∃ (p : Fin 1024) (q : Fin 512), y = ix2 p q := ⟨y 0, y 1, eq_ix2 y⟩
  have hz : z = ix2 (row i p) (chan j q) := by
    funext a; refine Fin.ext ?_
    match a with
    | ⟨0, _⟩ => exact h0
    | ⟨1, _⟩ => exact h1
  rw [hz]
  exact tile_entry m c t h i j hi hj p q

/-- What a flushing point writes back is its block of the specification. -/
theorem flushed_eq (c : Dev nD) (t : Fin cfg0.N) (hf : (cfg0.win 7).flush t = true) :
    (dats m 0 c).flushed 7 t = ((cfg0.win 7).blk t).view.read (Elt Ideal) (spec m c) := by
  have h3 : t.val % 4 = 3 := (flush0_7 t).mp hf
  have hN : t.val < 256 := lt_of_lt_of_eq t.isLt (show cfg0.N = 256 from N_0)
  have hi := idx7 t
  rw [Value.flushed7]
  funext y
  rw [View.read_apply]
  refine tile_fun m c t h3 ⟨t.val / 32, by omega⟩ ⟨t.val / 4 % 8, by omega⟩ rfl rfl _ _ ?_ ?_
  · show win0_7.index t 0 * 1024 + 1 * (y 0).val = 1024 * (t.val / 32) + (y 0).val
    rw [hi.1]; omega
  · show win0_7.index t 1 * 512 + 1 * (y 1).val = 512 * (t.val / 4 % 8) + (y 1).val
    rw [hi.2]; omega

/-- Every entry of the result lies in some flushing point's block. -/
theorem cover (z : S8192x4096.Idx) :
    ∃ t : Fin cfg0.N, (cfg0.win 7).flush t = true ∧ z ∈ ((cfg0.win 7).blk t).view.set := by
  have h0 : (z 0).val < 8192 := (z 0).isLt
  have h1 : (z 1).val < 4096 := (z 1).isLt
  have hN : cfg0.N = 256 := N_0
  let t : Fin cfg0.N := ⟨32 * ((z 0).val / 1024) + 4 * ((z 1).val / 512) + 3, by rw [hN]; omega⟩
  have ht : t.val = 32 * ((z 0).val / 1024) + 4 * ((z 1).val / 512) + 3 := rfl
  have hi := idx7 t
  refine ⟨t, (flush0_7 t).mpr (by rw [ht]; omega), ?_⟩
  show z ∈ ((View.whole main_v2).slice (win0_7.rect t)).set
  rw [View.set_slice_whole, Rect.mem_set_unit]
  intro a
  match a with
  | ⟨0, _⟩ =>
    show win0_7.index t 0 * 1024 ≤ (z 0).val ∧ (z 0).val < win0_7.index t 0 * 1024 + 1024
    rw [hi.1, ht]; omega
  | ⟨1, _⟩ =>
    show win0_7.index t 1 * 512 ≤ (z 1).val ∧ (z 1).val < win0_7.index t 1 * 512 + 512
    rw [hi.2, ht]; omega

/-- So the result array ends holding the specification. -/
theorem final (c : Dev nD) : (dats m 0 c).arrAt 7 cfg0.N = spec m c :=
  (dats m 0 c).arrAt_eq_of_cover 7 (spec m c) (flushed_eq m c) cover

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.RefValue

end
-- ==== Proof.RefValue.lean ====
/-
  The reference, read entry by entry, is the specification.

  The reference dequantizes the whole weight matrix by viewing its 4096 columns as 32 groups of 128 and broadcasting
  each group's scale and zero point, transposes it, and takes one product over all 4096 columns; the low-rank term is
  `(x · (A·E)ᵀ) · Bᵀ` scaled by the literal. Entry (p, n): row-major positions match (column `l` of channel `n` is
  group `l / 128`, place `l % 128`), the transposes swap the two coordinates, and the broadcasts drop the unit
  coordinate.
-/
import proofs.«137011_j68942815036086_1_alg».proof.Proof.Gen.ReferenceIdeal.Read
import proofs.«137011_j68942815036086_1_alg».proof.Proof.Spec

noncomputable section

namespace Cert.ReferenceIdeal.RefValue

open Cert.ReferenceIdeal Cert.ReferenceIdeal.Read Cert.DequantLora Idealize.ShloMosaic Idealize.ShloMosaic.ValueIdx

/-- The dequantized, transposed weight at (column, channel). -/
theorem weightT_apply (x1 : (⟨S4096x4096, .i32⟩ : BufTy).Contents (Elt Ideal)) (x2 x3 : (⟨S4096x32, .f32⟩ : BufTy).Contents (Elt Ideal))
    (l n : Fin 4096) : val_main_v9 (F := Ideal) x1 x2 x3 (ix2 l n) = weight x1 x2 x3 n l := by
  have e0 : idx_main_v0 (idx_main_v8 (idx_main_v9 (ix2 l n))) = ix2 n l := by
    funext a; refine Fin.ext ?_
    match a with
    | ⟨0, _⟩ => show (((n.val * 4096 + l.val) / 4096 * 32 + (n.val * 4096 + l.val) / 128 % 32) * 128 + (n.val * 4096 + l.val) % 128) / 4096 = n.val; omega
    | ⟨1, _⟩ => show (((n.val * 4096 + l.val) / 4096 * 32 + (n.val * 4096 + l.val) / 128 % 32) * 128 + (n.val * 4096 + l.val) % 128) % 4096 = l.val; omega
  have e3 : idx_main_v2 (idx_main_v3 (idx_main_v8 (idx_main_v9 (ix2 l n)))) = ix2 n (grp l) := by
    funext a; refine Fin.ext ?_
    match a with
    | ⟨0, _⟩ => show (n.val * 4096 + l.val) / 4096 = n.val; omega
    | ⟨1, _⟩ => show (n.val * 4096 + l.val) / 128 % 32 = l.val / 128; omega
  have e2 : idx_main_v5 (idx_main_v6 (idx_main_v8 (idx_main_v9 (ix2 l n)))) = ix2 n (grp l) := by
    funext a; refine Fin.ext ?_
    match a with
    | ⟨0, _⟩ => show (n.val * 4096 + l.val) / 4096 = n.val; omega
    | ⟨1, _⟩ => show (n.val * 4096 + l.val) / 128 % 32 = l.val / 128; omega
  rw [val_main_v9_apply, val_main_v8_apply, val_main_v7_apply, val_main_v4_apply, val_main_v1_apply, val_main_v0_apply,
    val_main_v3_apply, val_main_v2_apply, val_main_v6_apply, val_main_v5_apply, e0, e3, e2]
  rfl

/-- The adapter's first factor, transposed, at (column, rank). -/
theorem adaptT_apply (x4 : (⟨S16x4096, .f32⟩ : BufTy).Contents (Elt Ideal)) (x5 : (⟨S16x1, .f32⟩ : BufTy).Contents (Elt Ideal))
    (l : Fin 4096) (r : Fin 16) : val_main_v13 (F := Ideal) x4 x5 (ix2 l r) = adapt x4 x5 r l := by
  have e0 : idx_main_v13 (ix2 l r) = ix2 r l := by
    funext a; match a with | ⟨0, _⟩ => rfl | ⟨1, _⟩ => rfl
  have e1 : idx_main_v11 (ix2 r l) = ix2 r (0 : Fin 1) := by
    funext a; match a with | ⟨0, _⟩ => rfl | ⟨1, _⟩ => rfl
  rw [val_main_v13_apply, e0, val_main_v12_apply, val_main_v11_apply, e1]
  rfl

/-- THE REFERENCE'S RESULT is the specification's. -/
theorem ref_eq (x0 : (⟨S8192x4096, .f32⟩ : BufTy).Contents (Elt Ideal)) (x1 : (⟨S4096x4096, .i32⟩ : BufTy).Contents (Elt Ideal))
    (x2 x3 : (⟨S4096x32, .f32⟩ : BufTy).Contents (Elt Ideal)) (x4 : (⟨S16x4096, .f32⟩ : BufTy).Contents (Elt Ideal))
    (x5 : (⟨S16x1, .f32⟩ : BufTy).Contents (Elt Ideal)) (x6 : (⟨S4096x16, .f32⟩ : BufTy).Contents (Elt Ideal)) :
    val_main_v19 (F := Ideal) x0 x1 x2 x3 x4 x5 x6 = result x0 x1 x2 x3 x4 x5 x6 := by
  funext i
  obtain ⟨p, n, rfl⟩ : ∃ (p : Fin 8192) (n : Fin 4096), i = ix2 p n := ⟨i 0, i 1, eq_ix2 i⟩
  have el10 : ∀ l : Fin 4096, lidx_main_v10 (ix2 p n) l = ix2 p l := fun l => by
    funext a; match a with | ⟨0, _⟩ => rfl | ⟨1, _⟩ => rfl
  have er10 : ∀ l : Fin 4096, ridx_main_v10 (ix2 p n) l = ix2 l n := fun l => by
    funext a; match a with | ⟨0, _⟩ => rfl | ⟨1, _⟩ => rfl
  have el16 : ∀ r : Fin 16, lidx_main_v16 (ix2 p n) r = ix2 p r := fun r => by
    funext a; match a with | ⟨0, _⟩ => rfl | ⟨1, _⟩ => rfl
  have er16 : ∀ r : Fin 16, ridx_main_v16 (ix2 p n) r = ix2 r n := fun r => by
    funext a; match a with | ⟨0, _⟩ => rfl | ⟨1, _⟩ => rfl
  have el14 : ∀ (r : Fin 16) (l : Fin 4096), lidx_main_v14 (ix2 p r) l = ix2 p l := fun r l => by
    funext a; match a with | ⟨0, _⟩ => rfl | ⟨1, _⟩ => rfl
  have er14 : ∀ (r : Fin 16) (l : Fin 4096), ridx_main_v14 (ix2 p r) l = ix2 l r := fun r l => by
    funext a; match a with | ⟨0, _⟩ => rfl | ⟨1, _⟩ => rfl
  have e15 : ∀ r : Fin 16, idx_main_v15 (ix2 r n) = ix2 n r := fun r => by
    funext a; match a with | ⟨0, _⟩ => rfl | ⟨1, _⟩ => rfl
  rw [val_main_v19_apply, val_main_v10_apply, val_main_v18_apply, val_main_v16_apply, val_main_v17_apply]
  unfold result
  refine congrArg₂ (· + ·) (Finset.sum_congr rfl fun l _ => ?_)
    (congrArg₂ (· * ·) (Finset.sum_congr rfl fun r _ => ?_) rfl)
  · rw [el10, er10, weightT_apply]
  · rw [el16, er16, val_main_v14_apply, val_main_v15_apply, e15]
    refine congrArg (· * x6 (ix2 n r)) (Finset.sum_congr rfl fun l _ => ?_)
    rw [el14, er14, adaptT_apply]

end Cert.ReferenceIdeal.RefValue

end
-- ==== Proof.lean ====
/-
  The proof of `Cert.Claim`: a group-quantized matrix product with a low-rank adapter, computed by a kernel that
  tiles rows, output channels and columns and accumulates over four runs of 1024 columns, against the plain jnp
  program that dequantizes the whole weight matrix and multiplies once.

  Both programs end, at every entry (p, n) of the [8192, 4096] result, with
      ∑ₗ x[p,l] · (code[n,l] − zero[n, l/128]) · scale[n, l/128]  +  (∑ᵣ (∑ₗ x[p,l] · (A[r,l] · E[r,0])) · B[n,r]) · c
  over the extended reals (Proof/Spec.lean). The reference is that sum as it stands (Proof/RefValue.lean). The kernel
  reaches it block by block: what one run of the body leaves (Proof/Pieces.lean), the body's arithmetic at an entry
  (Proof/Payload.lean), the blocks it reads at a grid point (Proof/Blocks.lean), the two accumulators over a run of
  four points (Proof/Chain.lean), the stored tile against the specification (Proof/Tile.lean) and the result array
  from its tiles (Proof/KernelValue.lean). The one law used is that a sum over 4096 columns is the zero-started chain
  of its four runs' sums; it holds for every extended real, so the precondition is never opened. The frames are the
  generated ones; the idealization rewrote nothing.
-/
import proofs.«137011_j68942815036086_1_alg».proof.Defs
import proofs.«137011_j68942815036086_1_alg».proof.Proof.Gen.Kernel
import proofs.«137011_j68942815036086_1_alg».proof.Proof.Gen.Kernel.Frame
import proofs.«137011_j68942815036086_1_alg».proof.Proof.Gen.KernelIdeal
import proofs.«137011_j68942815036086_1_alg».proof.Proof.Gen.KernelIdeal.Frame
import proofs.«137011_j68942815036086_1_alg».proof.Proof.Gen.KernelIdeal.Value
import proofs.«137011_j68942815036086_1_alg».proof.Proof.Gen.ReferenceIdeal
import proofs.«137011_j68942815036086_1_alg».proof.Proof.Gen.ReferenceIdeal.Run
import proofs.«137011_j68942815036086_1_alg».proof.Proof.Gen.ReferenceIdeal.Read
import proofs.«137011_j68942815036086_1_alg».proof.Proof.Gen.Pre_finite_inputs
import proofs.«137011_j68942815036086_1_alg».proof.Proof.KernelValue
import proofs.«137011_j68942815036086_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the specification of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Tile.spec m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
